-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S128x32 : Shape := ⟨2, ![128, 32]⟩
abbrev S1 : Shape := ⟨1, ![1]⟩
abbrev S32 : Shape := ⟨1, ![32]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S128x32 : S_.BroadcastsInDim S128x32 (![] : Fin 0 → Fin S128x32.rank)
  reducesTo_S128x32_S_d0_1 : S128x32.ReducesTo [0, 1] S_
  bcast_S_S1 : S_.BroadcastsInDim S1 (![] : Fin 0 → Fin S1.rank)
  reducesTo_S1_S_d0 : S1.ReducesTo [0] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_arg5 : FVec F S32 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S8x4096x128 .f32) (main_arg1 : FVec F S128x32 .f32) (main_arg2 : FVec F S128x32 .f32) (main_arg3 : FVec F S1 .f32) (main_arg4 : FVec F S32 .f32) (main_arg5 : FVec F S32 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S128x32 .f32 := Host.absf main_arg1
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_v13 main_v16
-- ==== Kernel.lean ====
abbrev S8x4096x128 : Shape := ⟨3, ![8, 4096, 128]⟩
abbrev S128x32 : Shape := ⟨2, ![128, 32]⟩
abbrev S1 : Shape := ⟨1, ![1]⟩
abbrev S32 : Shape := ⟨1, ![32]⟩
abbrev S8x2048x2x128 : Shape := ⟨4, ![8, 2048, 2, 128]⟩
abbrev S8x2048x1024 : Shape := ⟨3, ![8, 2048, 1024]⟩
abbrev S1x1024x2x128 : Shape := ⟨4, ![1, 1024, 2, 128]⟩
abbrev S1x1024x1024 : Shape := ⟨3, ![1, 1024, 1024]⟩
abbrev S1024x2x128 : Shape := ⟨3, ![1024, 2, 128]⟩
abbrev S1024x1024 : Shape := ⟨2, ![1024, 1024]⟩
abbrev S1024x1x128 : Shape := ⟨3, ![1024, 1, 128]⟩
abbrev S1024x128 : Shape := ⟨2, ![1024, 128]⟩
abbrev S1024x32 : Shape := ⟨2, ![1024, 32]⟩
abbrev S1x32 : Shape := ⟨2, ![1, 32]⟩
abbrev S1024x32x1 : Shape := ⟨3, ![1024, 32, 1]⟩
abbrev S1024x1x32 : Shape := ⟨3, ![1024, 1, 32]⟩
abbrev S1024x32x32 : Shape := ⟨3, ![1024, 32, 32]⟩

abbrev nBuf : Space → Nat
  | .hbm => 8
  | .vmem => 9
  | .smem => 0
  | _ => 0

abbrev bufTy : (tb : Table) → Fin (tcTables nBuf tb) → BufTy
  | .hbm, ⟨0, _⟩ => ⟨S8x4096x128, .f32⟩
  | .hbm, ⟨1, _⟩ => ⟨S128x32, .f32⟩
  | .hbm, ⟨2, _⟩ => ⟨S128x32, .f32⟩
  | .hbm, ⟨3, _⟩ => ⟨S1, .f32⟩
  | .hbm, ⟨4, _⟩ => ⟨S32, .f32⟩
  | .hbm, ⟨5, _⟩ => ⟨S32, .f32⟩
  | .hbm, ⟨6, _⟩ => ⟨S8x2048x2x128, .f32⟩
  | .hbm, ⟨7, _⟩ => ⟨S8x2048x1024, .f32⟩
  | .local _ .vmem, ⟨0, _⟩ => ⟨S1x1024x2x128, .f32⟩
  | .local _ .vmem, ⟨1, _⟩ => ⟨S1x1024x2x128, .f32⟩
  | .local _ .vmem, ⟨2, _⟩ => ⟨S128x32, .f32⟩
  | .local _ .vmem, ⟨3, _⟩ => ⟨S128x32, .f32⟩
  | .local _ .vmem, ⟨4, _⟩ => ⟨S32, .f32⟩
  | .local _ .vmem, ⟨5, _⟩ => ⟨S32, .f32⟩
  | .local _ .vmem, ⟨6, _⟩ => ⟨S1, .f32⟩
  | .local _ .vmem, ⟨7, _⟩ => ⟨S1x1024x1024, .f32⟩
  | .local _ .vmem, ⟨8, _⟩ => ⟨S1x1024x1024, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S8x4096x128_S8x2048x2x128 : S8x4096x128.ShapeCasts S8x2048x2x128
  inb_S1x1024x2x128_S1x1024x2x128_0_0_0_0 : ∀ a, (![0, 0, 0, 0] : Fin 4 → Nat) a + S1x1024x2x128.size a ≤ S1x1024x2x128.size a
  h_S1x1024x2x128 : 0 < S1x1024x2x128.numel
  shapeCasts_S1x1024x2x128_S1024x2x128 : S1x1024x2x128.ShapeCasts S1024x2x128
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  inb_S1_S1_0 : ∀ a, (![0] : Fin 1 → Nat) a + S1.size a ≤ S1.size a
  h_S1 : 0 < S1.numel
  inpos_S1_p0 : ∀ a, (![0] : Fin 1 → Nat) a < S1.size a
  slices_S1024x2x128_o0_0_0_S1024x1x128 : S1024x2x128.Slices ![0, 0, 0] S1024x1x128
  shapeCasts_S1024x1x128_S1024x128 : S1024x1x128.ShapeCasts S1024x128
  shapeCasts_S32_S1x32 : S32.ShapeCasts S1x32
  broadcasts_S1x32_S1024x32 : S1x32.Broadcasts S1024x32
  shapeCasts_S1024x32_S1024x32x1 : S1024x32.ShapeCasts S1024x32x1
  shapeCasts_S1024x32_S1024x1x32 : S1024x32.ShapeCasts S1024x1x32
  broadcasts_S1024x32x1_S1024x32x32 : S1024x32x1.Broadcasts S1024x32x32
  broadcasts_S1024x1x32_S1024x32x32 : S1024x1x32.Broadcasts S1024x32x32
  shapeCasts_S1024x32x32_S1024x1024 : S1024x32x32.ShapeCasts S1024x1024
  slices_S1024x2x128_o0_1_0_S1024x1x128 : S1024x2x128.Slices ![0, 1, 0] S1024x1x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x128_S128x32_S1024x32_1_0_0_1_n_n_wf : DotDims.WF S1024x128 S128x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2x128.size a ≤ S8x2048x2x128.size a
  hwx0_0 : ∀ i : grid0.Coords, EltTy.bits .f32 = 32 ∨ (Rect.block (s := S8x2048x2x128) S1x1024x2x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1024.size a ≤ S8x2048x1024.size a
  hwx0_6 : ∀ i : grid0.Coords, EltTy.bits .f32 = 32 ∨ (Rect.block (s := S8x2048x1024) S1x1024x1024.size (cc0_transform_6 i) (hinb0_6 i)).WholeWords (EltTy.packing .f32)

variable [Facts₀]

def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf

abbrev win0_0 : Pipeline.Window sig grid0 :=
  Pipeline.Window.ofSpec (Memref.whole main_v0) S1x1024x2x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x128 : Shape := ⟨3, ![8, 4096, 128]⟩
abbrev S128x32 : Shape := ⟨2, ![128, 32]⟩
abbrev S1 : Shape := ⟨1, ![1]⟩
abbrev S32 : Shape := ⟨1, ![32]⟩
abbrev S8x4096x32 : Shape := ⟨3, ![8, 4096, 32]⟩
abbrev S1x1x32 : Shape := ⟨3, ![1, 1, 32]⟩
abbrev S_ : Shape := ⟨0, ![]⟩
abbrev S8x4096x32x1 : Shape := ⟨4, ![8, 4096, 32, 1]⟩
abbrev S8x4096x1x32 : Shape := ⟨4, ![8, 4096, 1, 32]⟩
abbrev S8x4096x32x32 : Shape := ⟨4, ![8, 4096, 32, 32]⟩
abbrev S8x4096x1024 : Shape := ⟨3, ![8, 4096, 1024]⟩
abbrev S8x2048x2x1024 : Shape := ⟨4, ![8, 2048, 2, 1024]⟩
abbrev S8x2048x1024 : Shape := ⟨3, ![8, 2048, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S128x32, .f32⟩
  | .hbm, ⟨2, _⟩ => ⟨S128x32, .f32⟩
  | .hbm, ⟨3, _⟩ => ⟨S1, .f32⟩
  | .hbm, ⟨4, _⟩ => ⟨S32, .f32⟩
  | .hbm, ⟨5, _⟩ => ⟨S32, .f32⟩
  | .hbm, ⟨6, _⟩ => ⟨S8x4096x32, .f32⟩
  | .hbm, ⟨7, _⟩ => ⟨S1x1x32, .f32⟩
  | .hbm, ⟨8, _⟩ => ⟨S8x4096x32, .f32⟩
  | .hbm, ⟨9, _⟩ => ⟨S8x4096x32, .f32⟩
  | .hbm, ⟨10, _⟩ => ⟨S8x4096x32, .f32⟩
  | .hbm, ⟨11, _⟩ => ⟨S1x1x32, .f32⟩
  | .hbm, ⟨12, _⟩ => ⟨S8x4096x32, .f32⟩
  | .hbm, ⟨13, _⟩ => ⟨S8x4096x32, .f32⟩
  | .hbm, ⟨14, _⟩ => ⟨S_, .f32⟩
  | .hbm, ⟨15, _⟩ => ⟨S8x4096x32x1, .f32⟩
  | .hbm, ⟨16, _⟩ => ⟨S8x4096x1x32, .f32⟩
  | .hbm, ⟨17, _⟩ => ⟨S8x4096x32x32, .f32⟩
  | .hbm, ⟨18, _⟩ => ⟨S8x4096x32x32, .f32⟩
  | .hbm, ⟨19, _⟩ => ⟨S8x4096x32x32, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x2048x2x1024, .f32⟩
  | .hbm, ⟨24, _⟩ => ⟨S_, .f32⟩
  | .hbm, ⟨25, _⟩ => ⟨S8x2048x1024, .f32⟩
  | .hbm, ⟨26, _⟩ => ⟨S_, .f32⟩
  | .hbm, ⟨27, _⟩ => ⟨S8x2048x1024, .f32⟩
  | .hbm, ⟨28, _⟩ => ⟨S8x2048x1024, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S8x4096x32_0_1_2 : S1x1x32.BroadcastsInDim S8x4096x32 (![0, 1, 2] : Fin 3 → Fin S8x4096x32.rank)
  shapeCasts_S1_S_ : S1.ShapeCasts S_
  bcast_S8x4096x32_S8x4096x32x1_0_1_2 : S8x4096x32.BroadcastsInDim S8x4096x32x1 (![0, 1, 2] : Fin 3 → Fin S8x4096x32x1.rank)
  bcast_S8x4096x32_S8x4096x1x32_0_1_3 : S8x4096x32.BroadcastsInDim S8x4096x1x32 (![0, 1, 3] : Fin 3 → Fin S8x4096x1x32.rank)
  bcast_S8x4096x32x1_S8x4096x32x32_0_1_2_3 : S8x4096x32x1.BroadcastsInDim S8x4096x32x32 (![0, 1, 2, 3] : Fin 4 → Fin S8x4096x32x32.rank)
  bcast_S8x4096x1x32_S8x4096x32x32_0_1_2_3 : S8x4096x1x32.BroadcastsInDim S8x4096x32x32 (![0, 1, 2, 3] : Fin 4 → Fin S8x4096x32x32.rank)
  shapeCasts_S8x4096x32x32_S8x4096x1024 : S8x4096x32x32.ShapeCasts S8x4096x1024
  bcast_S_S8x4096x1024 : S_.BroadcastsInDim S8x4096x1024 (![] : Fin 0 → Fin S8x4096x1024.rank)
  shapeCasts_S8x4096x1024_S8x2048x2x1024 : S8x4096x1024.ShapeCasts S8x2048x2x1024
  reducesTo_S8x2048x2x1024_S8x2048x1024_d2 : S8x2048x2x1024.ReducesTo [2] S8x2048x1024
  h_S_ : 0 < S_.numel
  bcast_S_S8x2048x1024 : S_.BroadcastsInDim S8x2048x1024 (![] : Fin 0 → Fin S8x2048x1024.rank)
  dot_S8x4096x128_S128x32_S8x4096x32_2_0_01_1_n_n_wf : DotDims.WF S8x4096x128 S128x32 S8x4096x32 [2] [0] [0, 1] [1] [] []

variable [Facts₀]

def dot_S8x4096x128_S128x32_S8x4096x32_2_0_01_1_n_n : DotDims S8x4096x128 S128x32 S8x4096x32 where
  lhsContracting := [2]
  rhsContracting := [0]
  lhsNonContracting := [0, 1]
  rhsNonContracting := [1]
  lhsBatch := []
  rhsBatch := []
  wf := dot_S8x4096x128_S128x32_S8x4096x32_2_0_01_1_n_n_wf

class Facts : Prop extends Facts₀ where

variable [Facts]
-- ==== Proof.Spec.lean ====
/-
  The function both programs compute.

  For a batch entry p and a frame t, two affine projections of the frame's 128 features onto 32
  basis columns each, z₁[n] = ∑ k, X[p,t,k]·W₁[k,n] + b₁[n] and z₂[n] = ∑ k, X[p,t,k]·W₂[k,n] + b₂[n];
  the frame's bilinear feature (n₁, n₂) is g·(z₁[n₁]·z₂[n₂]), laid out flat at column 32·n₁ + n₂.
  Pooling with stride 2 averages the features of frames 2o and 2o + 1:
  out[p, o, c] = ((0 + feat(2o)) + feat(2o + 1)) · ½ with n₁ = c / 32 and n₂ = c % 32.
  The zero and the half are kept as the float words the programs spell.
-/
import Idealize.ShloMosaic.Lib.ValueIdx

noncomputable section

open scoped BigOperators

namespace Cert.Pool

open Idealize.ShloMosaic Idealize.ShloMosaic.ValueIdx

/-- The first frame of pooling group `o`. -/
def even (o : Fin 2048) : Fin 4096 := ⟨2 * o.val, by have := o.isLt; omega⟩
/-- The second frame of pooling group `o`. -/
def odd (o : Fin 2048) : Fin 4096 := ⟨2 * o.val + 1, by have := o.isLt; omega⟩
/-- The first basis index of flat column `c`. -/
def hi (c : Fin 1024) : Fin 32 := ⟨c.val / 32, by have := c.isLt; omega⟩
/-- The second basis index of flat column `c`. -/
def lo (c : Fin 1024) : Fin 32 := ⟨c.val % 32, by have := c.isLt; omega⟩

/-- One affine projection of frame (p, t): the frame's features against column `n` of `W`, plus the bias. -/
def proj (X : (⟨3, ![8, 4096, 128]⟩ : Shape).Idx → EReal) (W : (⟨2, ![128, 32]⟩ : Shape).Idx → EReal)
    (b : (⟨1, ![32]⟩ : Shape).Idx → EReal) (p : Fin 8) (t : Fin 4096) (n : Fin 32) : EReal :=
  (∑ k : Fin 128, X (ix3 p t k) * W (ix2 k n)) + b (ix1 n)

/-- The scaled bilinear feature (n₁, n₂) of frame (p, t). -/
def feat (X : (⟨3, ![8, 4096, 128]⟩ : Shape).Idx → EReal) (W₁ W₂ : (⟨2, ![128, 32]⟩ : Shape).Idx → EReal)
    (g : (⟨1, ![1]⟩ : Shape).Idx → EReal) (b₁ b₂ : (⟨1, ![32]⟩ : Shape).Idx → EReal)
    (p : Fin 8) (t : Fin 4096) (n₁ n₂ : Fin 32) : EReal :=
  g (ix1 (0 : Fin 1)) * (proj X W₁ b₁ p t n₁ * proj X W₂ b₂ p t n₂)

/-- The pooled output at (p, o, c): the two frames of group `o` added onto zero, then halved. -/
def pooledAt (X : (⟨3, ![8, 4096, 128]⟩ : Shape).Idx → EReal) (W₁ W₂ : (⟨2, ![128, 32]⟩ : Shape).Idx → EReal)
    (g : (⟨1, ![1]⟩ : Shape).Idx → EReal) (b₁ b₂ : (⟨1, ![32]⟩ : Shape).Idx → EReal)
    (p : Fin 8) (o : Fin 2048) (c : Fin 1024) : EReal :=
  ((Ideal.ofBits .f32 0x00000000#32 + feat X W₁ W₂ g b₁ b₂ p (even o) (hi c) (lo c))
      + feat X W₁ W₂ g b₁ b₂ p (odd o) (hi c) (lo c)) * Ideal.ofBits .f32 0x3F000000#32

/-- The pooled output as one array. -/
def pooled (X : (⟨3, ![8, 4096, 128]⟩ : Shape).Idx → EReal) (W₁ W₂ : (⟨2, ![128, 32]⟩ : Shape).Idx → EReal)
    (g : (⟨1, ![1]⟩ : Shape).Idx → EReal) (b₁ b₂ : (⟨1, ![32]⟩ : Shape).Idx → EReal) :
    (⟨3, ![8, 2048, 1024]⟩ : Shape).Idx → EReal :=
  fun i => pooledAt X W₁ W₂ g b₁ b₂ (i 0) (i 1) (i 2)

theorem pooled_ix3 (X : (⟨3, ![8, 4096, 128]⟩ : Shape).Idx → EReal) (W₁ W₂ : (⟨2, ![128, 32]⟩ : Shape).Idx → EReal)
    (g : (⟨1, ![1]⟩ : Shape).Idx → EReal) (b₁ b₂ : (⟨1, ![32]⟩ : Shape).Idx → EReal)
    (p : Fin 8) (o : Fin 2048) (c : Fin 1024) :
    pooled X W₁ W₂ g b₁ b₂ (ix3 p o c) = pooledAt X W₁ W₂ g b₁ b₂ p o c := rfl

end Cert.Pool

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.KernelBlock.lean ====
/-
  What the kernel body stores, at one element of its output block.

  A grid point's body sees a block of 1024 pooling groups: x0[0, r, s, k] is feature k of frame s of
  group r. For s = 0 and s = 1 it takes the frame's rows, multiplies them against both weight
  matrices, adds the biases, forms the outer product of the two projections in the flat layout
  (column c holds the pair (c / 32, c % 32)), scales it, and accumulates onto zero; the sum is
  halved. Each layout operation is read at an index given by coordinates, each matrix product as a
  sum over the shared coordinate, so that element (0, r, c) of the stored block is
  ((0 + feat₀) + feat₁) · ½ of the block's own rows.
-/
import proofs.«170283_j34213709480472_1_alg».proof.Proof.Gen.KernelIdeal.Frame
import proofs.«170283_j34213709480472_1_alg».proof.Proof.Spec
import proofs.«170283_j34213709480472_1_alg».proof.Proof.LibPlainDot
import Idealize.ShloMosaic.Lib.ValueLayout
import Idealize.ShloMosaic.Lib.Pipeline.Value

noncomputable section

open scoped BigOperators

namespace Cert.Pool.Block

open Idealize.ShloMosaic Idealize.ShloMosaic.ValueIdx Cert.KernelIdeal Cert.KernelIdeal.Gen Cert.Pool

/-! ## The block's own projections and features -/

/-- One affine projection of frame `s` of group `r` of the block. -/
def bproj (x0 : Vec Ideal S1x1024x2x128 .f32) (W : Vec Ideal S128x32 .f32) (b : Vec Ideal S32 .f32)
    (r : Fin 1024) (s : Fin 2) (n : Fin 32) : EReal :=
  (∑ k : Fin 128, x0 (ix4 (0 : Fin 1) r s k) * W (ix2 k n)) + b (ix1 n)

/-- The scaled bilinear feature (n₁, n₂) of frame `s` of group `r` of the block. -/
def bfeat (x0 : Vec Ideal S1x1024x2x128 .f32) (W₁ W₂ : Vec Ideal S128x32 .f32) (g : Vec Ideal S1 .f32)
    (b₁ b₂ : Vec Ideal S32 .f32) (r : Fin 1024) (s : Fin 2) (n₁ n₂ : Fin 32) : EReal :=
  g (ix1 (0 : Fin 1)) * (bproj x0 W₁ b₁ r s n₁ * bproj x0 W₂ b₂ r s n₂)

/-! ## The layout operations, at coordinates -/

/-- The rows of frame 0: the block's leading unit axis dropped, the frame axis cut at 0 and dropped. -/
theorem rows0_at (x0 : Vec Ideal S1x1024x2x128 .f32) (r : Fin 1024) (k : Fin 128) :
    shapeCast S1024x128 (extractStridedSlice S1024x1x128 ![0, 0, 0] (k0_pay2 (F := Ideal) x0) slices_S1024x2x128_o0_0_0_S1024x1x128)
        shapeCasts_S1024x1x128_S1024x128 (ix2 r k) = x0 (ix4 (0 : Fin 1) r (0 : Fin 2) k) := by
  refine (shapeCast_apply _ _ (ix2 r k) (ix3 r (0 : Fin 1) k) ?_).trans ?_
  · rw [Shape.rowMajor_val_three, Shape.rowMajor_val_two]
    show (r.val * 1 + 0) * 128 + k.val = r.val * 128 + k.val
    omega
  refine (slice3_axis1_apply 0 _ _ r (0 : Fin 1) k (0 : Fin 2) rfl).trans ?_
  unfold k0_pay2
  exact shapeCast_1abc_abc_apply x0 _ r (0 : Fin 2) k

/-- The rows of frame 1. -/
theorem rows1_at (x0 : Vec Ideal S1x1024x2x128 .f32) (r : Fin 1024) (k : Fin 128) :
    k0_pay5 (F := Ideal) x0 (ix2 r k) = x0 (ix4 (0 : Fin 1) r (1 : Fin 2) k) := by
  unfold k0_pay5
  refine (shapeCast_apply _ _ (ix2 r k) (ix3 r (0 : Fin 1) k) ?_).trans ?_
  · rw [Shape.rowMajor_val_three, Shape.rowMajor_val_two]
    show (r.val * 1 + 0) * 128 + k.val = r.val * 128 + k.val
    omega
  refine (slice3_axis1_apply 1 _ _ r (0 : Fin 1) k (1 : Fin 2) rfl).trans ?_
  unfold k0_pay2
  exact shapeCast_1abc_abc_apply x0 _ r (1 : Fin 2) k

/-- A product of 1024 rows against a weight matrix into zero, plus the bias row broadcast over the rows. -/
theorem z_at (xs : FVec Ideal S1024x128 .f32) (W : FVec Ideal S128x32 .f32) (b : FVec Ideal S32 .f32) (r : Fin 1024) (n : Fin 32) :
    addf (matmul dot_S1024x128_S128x32_S1024x32_1_0_0_1_n_n none xs W (constant S1024x32 .f32 0x00000000#32))
        (broadcastTo S1024x32 (shapeCast S1x32 b shapeCasts_S32_S1x32) broadcasts_S1x32_S1024x32) (ix2 r n)
      = (∑ k : Fin 128, xs (ix2 r k) * W (ix2 k n)) + b (ix1 n) := by
  rw [addf_apply]
  congr 1
  · exact PlainDot.matmul_zero_apply 1024 128 32 none xs W r n
  · exact (broadcastTo_1b_ab_apply _ _ r n).trans (shapeCast_a_1a_apply b _ (0 : Fin 1) n)

/-- A matrix as a stack of columns, broadcast along a new last axis: (r, n₁, n₂) reads (r, n₁). -/
theorem col_at (z : FVec Ideal S1024x32 .f32) (r : Fin 1024) (n₁ n₂ : Fin 32) :
    broadcastTo S1024x32x32 (shapeCast S1024x32x1 z shapeCasts_S1024x32_S1024x32x1) broadcasts_S1024x32x1_S1024x32x32 (ix3 r n₁ n₂)
      = z (ix2 r n₁) := by
  refine (broadcastTo_apply _ _ (ix3 r n₁ n₂) (ix3 r n₁ (0 : Fin 1)) (fun a => ?_)).trans ?_
  · match a with
    | ⟨0, _⟩ => show r.val = if (1024 : Nat) = 1 then 0 else r.val; rw [if_neg (by decide)]
    | ⟨1, _⟩ => show n₁.val = if (32 : Nat) = 1 then 0 else n₁.val; rw [if_neg (by decide)]
    | ⟨2, _⟩ => show 0 = if (1 : Nat) = 1 then 0 else n₂.val; rw [if_pos rfl]
  · refine shapeCast_apply z _ (ix3 r n₁ (0 : Fin 1)) (ix2 r n₁) ?_
    rw [Shape.rowMajor_val_two, Shape.rowMajor_val_three]
    show r.val * 32 + n₁.val = (r.val * 32 + n₁.val) * 1 + 0
    omega

/-- A matrix as a stack of rows, broadcast along a new middle axis: (r, n₁, n₂) reads (r, n₂). -/
theorem row_at (z : FVec Ideal S1024x32 .f32) (r : Fin 1024) (n₁ n₂ : Fin 32) :
    broadcastTo S1024x32x32 (shapeCast S1024x1x32 z shapeCasts_S1024x32_S1024x1x32) broadcasts_S1024x1x32_S1024x32x32 (ix3 r n₁ n₂)
      = z (ix2 r n₂) := by
  refine (broadcastTo_apply _ _ (ix3 r n₁ n₂) (ix3 r (0 : Fin 1) n₂) (fun a => ?_)).trans ?_
  · match a with
    | ⟨0, _⟩ => show r.val = if (1024 : Nat) = 1 then 0 else r.val; rw [if_neg (by decide)]
    | ⟨1, _⟩ => show 0 = if (1 : Nat) = 1 then 0 else n₁.val; rw [if_pos rfl]
    | ⟨2, _⟩ => show n₂.val = if (32 : Nat) = 1 then 0 else n₂.val; rw [if_neg (by decide)]
  · refine shapeCast_apply z _ (ix3 r (0 : Fin 1) n₂) (ix2 r n₂) ?_
    rw [Shape.rowMajor_val_two, Shape.rowMajor_val_three]
    show r.val * 32 + n₂.val = (r.val * 1 + 0) * 32 + n₂.val
    omega

/-- The flat layout of the 32 × 32 features: column c is the pair (c / 32, c % 32). -/
theorem flat_at (v : FVec Ideal S1024x32x32 .f32) (r c : Fin 1024) :
    shapeCast S1024x1024 v shapeCasts_S1024x32x32_S1024x1024 (ix2 r c) = v (ix3 r (hi c) (lo c)) := by
  refine shapeCast_apply v _ (ix2 r c) (ix3 r (hi c) (lo c)) ?_
  rw [Shape.rowMajor_val_three, Shape.rowMajor_val_two]
  have hc := c.isLt
  show (r.val * 32 + c.val / 32) * 32 + c.val % 32 = r.val * 1024 + c.val
  omega

/-- The scale, extracted from its one-element block. -/
theorem scale_eq (x5 : Vec Ideal S1 .f32) : k0_pay3 (F := Ideal) x5 = x5 (ix1 (0 : Fin 1)) := by
  unfold k0_pay3 extractAt
  exact congrArg x5 (funext fun a => Fin.ext (by match a with | ⟨0, _⟩ => rfl))

/-! ## The payloads -/

/-- The first projection of frame 1, as a stack of columns. -/
theorem pay6_at (x0 : Vec Ideal S1x1024x2x128 .f32) (W : Vec Ideal S128x32 .f32) (b : Vec Ideal S32 .f32)
    (r : Fin 1024) (n₁ n₂ : Fin 32) :
    k0_pay6 (F := Ideal) x0 W b (ix3 r n₁ n₂) = bproj x0 W b r (1 : Fin 2) n₁ := by
  unfold k0_pay6
  refine (col_at _ r n₁ n₂).trans ?_
  refine (z_at _ W b r n₁).trans ?_
  unfold bproj
  exact congrArg (· + b (ix1 n₁)) (Finset.sum_congr rfl fun k _ => congrArg (· * W (ix2 k n₁)) (rows1_at x0 r k))

/-- The second projection of frame 1, as a stack of rows. -/
theorem pay7_at (x0 : Vec Ideal S1x1024x2x128 .f32) (W : Vec Ideal S128x32 .f32) (b : Vec Ideal S32 .f32)
    (r : Fin 1024) (n₁ n₂ : Fin 32) :
    k0_pay7 (F := Ideal) x0 W b (ix3 r n₁ n₂) = bproj x0 W b r (1 : Fin 2) n₂ := by
  unfold k0_pay7
  refine (row_at _ r n₁ n₂).trans ?_
  refine (z_at _ W b r n₂).trans ?_
  unfold bproj
  exact congrArg (· + b (ix1 n₂)) (Finset.sum_congr rfl fun k _ => congrArg (· * W (ix2 k n₂)) (rows1_at x0 r k))

/-- Frame 0's scaled features accumulated onto zero. -/
theorem pay4_at (x0 : Vec Ideal S1x1024x2x128 .f32) (W₁ W₂ : Vec Ideal S128x32 .f32) (b₁ b₂ : Vec Ideal S32 .f32)
    (g : Vec Ideal S1 .f32) (r c : Fin 1024) :
    k0_pay4 (F := Ideal) x0 W₁ W₂ b₁ b₂ g (ix2 r c)
      = Ideal.ofBits .f32 0x00000000#32 + bfeat x0 W₁ W₂ g b₁ b₂ r (0 : Fin 2) (hi c) (lo c) := by
  unfold k0_pay4
  refine (addf_apply _ _ (ix2 r c)).trans ?_
  refine congrArg (Ideal.ofBits .f32 0x00000000#32 + ·) ?_
  refine (flat_at _ r c).trans ?_
  refine (mulf_apply _ _ _).trans ?_
  rw [scale_eq]
  refine congrArg (g (ix1 (0 : Fin 1)) * ·) ?_
  refine (mulf_apply _ _ _).trans ?_
  rw [col_at, row_at, z_at, z_at]
  unfold bproj
  simp only [rows0_at]

/-- THE STORED BLOCK at (0, r, c): both frames' scaled features added onto zero, halved. -/
theorem pay_at (x0 : Vec Ideal S1x1024x2x128 .f32) (W₁ W₂ : Vec Ideal S128x32 .f32) (b₁ b₂ : Vec Ideal S32 .f32)
    (g : Vec Ideal S1 .f32) (u : Fin 1) (r c : Fin 1024) :
    k0_pay1 (F := Ideal) (k0_pay3 g) (k0_pay4 x0 W₁ W₂ b₁ b₂ g) (k0_pay6 x0 W₁ b₁) (k0_pay7 x0 W₂ b₂) (ix3 u r c)
      = ((Ideal.ofBits .f32 0x00000000#32 + bfeat x0 W₁ W₂ g b₁ b₂ r (0 : Fin 2) (hi c) (lo c))
          + bfeat x0 W₁ W₂ g b₁ b₂ r (1 : Fin 2) (hi c) (lo c)) * Ideal.ofBits .f32 0x3F000000#32 := by
  unfold k0_pay1
  refine (shapeCast_ab_1ab_apply _ _ u r c).trans ?_
  refine (mulf_apply _ _ _).trans ?_
  refine congrArg (· * Ideal.ofBits .f32 0x3F000000#32) ?_
  refine (addf_apply _ _ _).trans ?_
  rw [pay4_at]
  refine congrArg ((Ideal.ofBits .f32 0x00000000#32 + bfeat x0 W₁ W₂ g b₁ b₂ r (0 : Fin 2) (hi c) (lo c)) + ·) ?_
  refine (flat_at _ r c).trans ?_
  refine (mulf_apply _ _ _).trans ?_
  rw [scale_eq]
  refine congrArg (g (ix1 (0 : Fin 1)) * ·) ?_
  refine (mulf_apply _ _ _).trans ?_
  rw [pay6_at, pay7_at]

end Cert.Pool.Block

end
-- ==== Proof.KernelValue.lean ====
/-
  The kernel's result array is the pooled bilinear features.

  Grid point t = (p, q) of the 8 × 2 grid reads pooling groups 1024·q … 1024·q + 1023 of batch
  entry p and writes the same rows of the output. The array the kernel stages is the input with its
  4096 frames regrouped in 2048 pairs, so frame s of group o is frame 2o + s; the weights, biases and
  scale are staged whole at every point. Hence what point t writes back is block t of the pooled
  array, the 16 blocks cover the output, and the output ends holding the pooled array.
-/
import proofs.«170283_j34213709480472_1_alg».proof.Proof.Gen.KernelIdeal.Value
import proofs.«170283_j34213709480472_1_alg».proof.Proof.KernelBlock
import Idealize.ShloMosaic.Lib.StableHlo.Run

set_option maxRecDepth 16384

noncomputable section

open scoped BigOperators

namespace Cert.Pool.KernelValue

open Idealize.ShloMosaic Idealize.ShloMosaic.TcCoe Idealize.SL.Sem Idealize.ShloMosaic.ValueIdx
open Cert.KernelIdeal Cert.KernelIdeal.Gen Cert.KernelIdeal.Value Cert.Pool Cert.Pool.Block
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The body's output block at (0, r, c), from its input blocks. -/
theorem out_at (x0 : Vec Ideal S1x1024x2x128 .f32) (x1 x2 : Vec Ideal S128x32 .f32) (x3 x4 : Vec Ideal S32 .f32)
    (x5 : Vec Ideal S1 .f32) (u : Fin 1) (r c : Fin 1024) :
    out0_6 (F := Ideal) x0 x1 x2 x3 x4 x5 (ix3 u r c)
      = ((Ideal.ofBits .f32 0x00000000#32 + bfeat x0 x1 x2 x5 x3 x4 r (0 : Fin 2) (hi c) (lo c))
          + bfeat x0 x1 x2 x5 x3 x4 r (1 : Fin 2) (hi c) (lo c)) * Ideal.ofBits .f32 0x3F000000#32 := by
  unfold out0_6
  rw [View.canon_unit_zero hz3]
  simp only [View.ld_unit_zero (S := S1x1024x2x128) hz4, View.ld_unit_zero (S := S128x32) hz2,
    View.ld_unit_zero (S := S32) hz1, View.ld_unit_zero (S := S1) hz1]
  exact pay_at x0 x1 x2 x3 x4 x5 u r c

/-- The six argument arrays as launched, on core `c`. -/
abbrev aX (c : Dev nD) : S8x4096x128.Idx → EReal := m ((c : Thread nD τ).loc main_arg0)
abbrev aW₁ (c : Dev nD) : S128x32.Idx → EReal := m ((c : Thread nD τ).loc main_arg1)
abbrev aW₂ (c : Dev nD) : S128x32.Idx → EReal := m ((c : Thread nD τ).loc main_arg2)
abbrev aG (c : Dev nD) : S1.Idx → EReal := m ((c : Thread nD τ).loc main_arg3)
abbrev aB₁ (c : Dev nD) : S32.Idx → EReal := m ((c : Thread nD τ).loc main_arg4)
abbrev aB₂ (c : Dev nD) : S32.Idx → EReal := m ((c : Thread nD τ).loc main_arg5)

/-- The staged input array: the argument with its frames regrouped in pairs. -/
theorem V_main_v0 (c : Dev nD) :
    (V m c main_v0 : S8x2048x2x128.Idx → EReal)
      = shapeCast S8x2048x2x128 (aX m c) shapeCasts_S8x4096x128_S8x2048x2x128 := by
  dsimp only [Gen.V, Gen.hostOps0]
  after_results
  rfl

/-- The printed index maps over the 16 grid points: the input block moves with the output block on the batch and
    group axes and sits at 0 on the others; the weights, biases and scale sit at block 0. -/
theorem idx_facts : ∀ t : Fin cfg0.N,
    win0_0.index t (0 : Fin 4) = win0_6.index t (0 : Fin 3) ∧ win0_0.index t (1 : Fin 4) = win0_6.index t (1 : Fin 3)
    ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0
    ∧ win0_6.index t (0 : Fin 3) ≤ 7 ∧ win0_6.index t (1 : Fin 3) ≤ 1 ∧ win0_6.index t (2 : Fin 3) = 0 :=
  (by decide +kernel : ∀ t : Fin grid0.N, _)

/-- Every block of the output is some point's. -/
theorem idx_onto : ∀ (q0 : Fin 8) (q1 : Fin 2), ∃ t : Fin cfg0.N, win0_6.index t = ![q0.val, q1.val, 0] :=
  (by decide +kernel : ∀ (q0 : Fin 8) (q1 : Fin 2), ∃ t : Fin grid0.N, win0_6.index t = ![q0.val, q1.val, 0])

/-! ## The argument arrays, and each window's block read off them -/

/-- Block t of the staged input at (0, r, s, k) is frame 2o + s of batch entry p, where p is the point's batch
    coordinate and o = 1024·q + r its group. -/
theorem iblk0_at (c : Dev nD) (t : Fin cfg0.N) (r : Fin 1024) (s : Fin 2) (k : Fin 128) (p : Fin 8) (o : Fin 2048)
    (hp : p.val = win0_6.index t (0 : Fin 3)) (ho : o.val = win0_6.index t (1 : Fin 3) * 1024 + r.val) :
    (iblk m c 0 t : Vec Ideal S1x1024x2x128 .f32) (ix4 (0 : Fin 1) r s k)
      = aX m c (ix3 p (⟨2 * o.val + s.val, by have := o.isLt; have := s.isLt; omega⟩ : Fin 4096) k) := by
  obtain ⟨e0, e1, e2, e3, -⟩ := idx_facts t
  unfold iblk
  rw [View.read_apply]
  have hemb : ((cfg0.win 0).blk t).view.emb (ix4 (0 : Fin 1) r s k) = (ix4 p o s k : S8x2048x2x128.Idx) := by
    funext a; apply Fin.ext
    match a with
    | ⟨0, _⟩ => show win0_0.index t (0 : Fin 4) * 1 + 1 * 0 = p.val; omega
    | ⟨1, _⟩ => show win0_0.index t (1 : Fin 4) * 1024 + 1 * r.val = o.val; omega
    | ⟨2, _⟩ => show win0_0.index t (2 : Fin 4) * 2 + 1 * s.val = s.val; omega
    | ⟨3, _⟩ => show win0_0.index t (3 : Fin 4) * 128 + 1 * k.val = k.val; omega
  show V m c main_v0 (((cfg0.win 0).blk t).view.emb (ix4 (0 : Fin 1) r s k)) = _
  rw [hemb, V_main_v0]
  refine shapeCast_apply (s := S8x4096x128) (t := S8x2048x2x128) (aX m c) _ (ix4 p o s k) _ ?_
  rw [Shape.rowMajor_val_three, Shape.rowMajor_val_four]
  show (p.val * 4096 + (2 * o.val + s.val)) * 128 + k.val = ((p.val * 2048 + o.val) * 2 + s.val) * 128 + k.val
  omega

/-- The first weight matrix is staged whole at every point. -/
theorem iblk1_at (c : Dev nD) (t : Fin cfg0.N) (k : Fin 128) (n : Fin 32) :
    (iblk m c 1 t : Vec Ideal S128x32 .f32) (ix2 k n) = aW₁ m c (ix2 k n) := by
  obtain ⟨-, -, -, -, e4, e5, -⟩ := idx_facts t
  unfold iblk
  rw [View.read_apply]
  have hemb : ((cfg0.win 1).blk t).view.emb (ix2 k n) = (ix2 k n : S128x32.Idx) := by
    funext a; apply Fin.ext
    match a with
    | ⟨0, _⟩ => show win0_1.index t (0 : Fin 2) * 128 + 1 * k.val = k.val; omega
    | ⟨1, _⟩ => show win0_1.index t (1 : Fin 2) * 32 + 1 * n.val = n.val; omega
  show V m c main_arg1 (((cfg0.win 1).blk t).view.emb (ix2 k n)) = _
  rw [hemb, V_main_arg1]

/-- The second weight matrix is staged whole at every point. -/
theorem iblk2_at (c : Dev nD) (t : Fin cfg0.N) (k : Fin 128) (n : Fin 32) :
    (iblk m c 2 t : Vec Ideal S128x32 .f32) (ix2 k n) = aW₂ m c (ix2 k n) := by
  obtain ⟨-, -, -, -, -, -, e6, e7, -⟩ := idx_facts t
  unfold iblk
  rw [View.read_apply]
  have hemb : ((cfg0.win 2).blk t).view.emb (ix2 k n) = (ix2 k n : S128x32.Idx) := by
    funext a; apply Fin.ext
    match a with
    | ⟨0, _⟩ => show win0_2.index t (0 : Fin 2) * 128 + 1 * k.val = k.val; omega
    | ⟨1, _⟩ => show win0_2.index t (1 : Fin 2) * 32 + 1 * n.val = n.val; omega
  show V m c main_arg2 (((cfg0.win 2).blk t).view.emb (ix2 k n)) = _
  rw [hemb, V_main_arg2]

/-- The first bias is staged whole at every point. -/
theorem iblk3_at (c : Dev nD) (t : Fin cfg0.N) (n : Fin 32) :
    (iblk m c 3 t : Vec Ideal S32 .f32) (ix1 n) = aB₁ m c (ix1 n) := by
  obtain ⟨-, -, -, -, -, -, -, -, e8, -⟩ := idx_facts t
  unfold iblk
  rw [View.read_apply]
  have hemb : ((cfg0.win 3).blk t).view.emb (ix1 n) = (ix1 n : S32.Idx) := by
    funext a; apply Fin.ext
    match a with
    | ⟨0, _⟩ => show win0_3.index t (0 : Fin 1) * 32 + 1 * n.val = n.val; omega
  show V m c main_arg4 (((cfg0.win 3).blk t).view.emb (ix1 n)) = _
  rw [hemb, V_main_arg4]

/-- The second bias is staged whole at every point. -/
theorem iblk4_at (c : Dev nD) (t : Fin cfg0.N) (n : Fin 32) :
    (iblk m c 4 t : Vec Ideal S32 .f32) (ix1 n) = aB₂ m c (ix1 n) := by
  obtain ⟨-, -, -, -, -, -, -, -, -, e9, -⟩ := idx_facts t
  unfold iblk
  rw [View.read_apply]
  have hemb : ((cfg0.win 4).blk t).view.emb (ix1 n) = (ix1 n : S32.Idx) := by
    funext a; apply Fin.ext
    match a with
    | ⟨0, _⟩ => show win0_4.index t (0 : Fin 1) * 32 + 1 * n.val = n.val; omega
  show V m c main_arg5 (((cfg0.win 4).blk t).view.emb (ix1 n)) = _
  rw [hemb, V_main_arg5]

/-- The scale is staged whole at every point. -/
theorem iblk5_at (c : Dev nD) (t : Fin cfg0.N) :
    (iblk m c 5 t : Vec Ideal S1 .f32) (ix1 (0 : Fin 1)) = aG m c (ix1 (0 : Fin 1)) := by
  obtain ⟨-, -, -, -, -, -, -, -, -, -, e10, -⟩ := idx_facts t
  unfold iblk
  rw [View.read_apply]
  have hemb : ((cfg0.win 5).blk t).view.emb (ix1 (0 : Fin 1)) = (ix1 (0 : Fin 1) : S1.Idx) := by
    funext a; apply Fin.ext
    match a with
    | ⟨0, _⟩ => show win0_5.index t (0 : Fin 1) * 1 + 1 * 0 = 0; omega
  show V m c main_arg3 (((cfg0.win 5).blk t).view.emb (ix1 (0 : Fin 1))) = _
  rw [hemb, V_main_arg3]

/-! ## What a point writes back -/

/-- The block's first projection at point t is the whole array's at the block's frame. -/
theorem bproj1_eq (c : Dev nD) (t : Fin cfg0.N) (r : Fin 1024) (s : Fin 2) (n : Fin 32) (p : Fin 8) (o : Fin 2048)
    (hp : p.val = win0_6.index t (0 : Fin 3)) (ho : o.val = win0_6.index t (1 : Fin 3) * 1024 + r.val) :
    bproj (iblk m c 0 t) (iblk m c 1 t) (iblk m c 3 t) r s n
      = proj (aX m c) (aW₁ m c) (aB₁ m c) p (⟨2 * o.val + s.val, by have := o.isLt; have := s.isLt; omega⟩ : Fin 4096) n := by
  unfold bproj proj
  rw [iblk3_at]
  refine congrArg (· + aB₁ m c (ix1 n)) (Finset.sum_congr rfl fun k _ => ?_)
  rw [iblk0_at m c t r s k p o hp ho, iblk1_at]

/-- The block's second projection at point t is the whole array's at the block's frame. -/
theorem bproj2_eq (c : Dev nD) (t : Fin cfg0.N) (r : Fin 1024) (s : Fin 2) (n : Fin 32) (p : Fin 8) (o : Fin 2048)
    (hp : p.val = win0_6.index t (0 : Fin 3)) (ho : o.val = win0_6.index t (1 : Fin 3) * 1024 + r.val) :
    bproj (iblk m c 0 t) (iblk m c 2 t) (iblk m c 4 t) r s n
      = proj (aX m c) (aW₂ m c) (aB₂ m c) p (⟨2 * o.val + s.val, by have := o.isLt; have := s.isLt; omega⟩ : Fin 4096) n := by
  unfold bproj proj
  rw [iblk4_at]
  refine congrArg (· + aB₂ m c (ix1 n)) (Finset.sum_congr rfl fun k _ => ?_)
  rw [iblk0_at m c t r s k p o hp ho, iblk2_at]

/-- The body's output block at point t, at a block index y, is the pooled array at the array index i under y. -/
theorem flushed_at (c : Dev nD) (t : Fin cfg0.N) (y : S1x1024x1024.Idx) (i : S8x2048x1024.Idx)
    (h0 : (i 0).val = win0_6.index t (0 : Fin 3)) (h1 : (i 1).val = win0_6.index t (1 : Fin 3) * 1024 + (y 1).val)
    (h2 : (i 2).val = (y 2).val) :
    out0_6 (F := Ideal) (iblk m c 0 t) (iblk m c 1 t) (iblk m c 2 t) (iblk m c 3 t) (iblk m c 4 t) (iblk m c 5 t) y
      = pooled (aX m c) (aW₁ m c) (aW₂ m c) (aG m c) (aB₁ m c) (aB₂ m c) i := by
  obtain ⟨u, r, cc, rfl⟩ : ∃ (u : Fin 1) (r : Fin 1024) (cc : Fin 1024), y = ix3 u r cc := ⟨y 0, y 1, y 2, eq_ix3 y⟩
  obtain ⟨p, o, c', rfl⟩ : ∃ (p : Fin 8) (o : Fin 2048) (c' : Fin 1024), i = ix3 p o c' := ⟨i 0, i 1, i 2, eq_ix3 i⟩
  obtain rfl : c' = cc := Fin.ext h2
  rw [out_at, pooled_ix3]
  unfold pooledAt bfeat feat
  rw [iblk5_at, bproj1_eq m c t r (0 : Fin 2) (hi c') p o h0 h1, bproj2_eq m c t r (0 : Fin 2) (lo c') p o h0 h1,
    bproj1_eq m c t r (1 : Fin 2) (hi c') p o h0 h1, bproj2_eq m c t r (1 : Fin 2) (lo c') p o h0 h1]
  rfl

/-- WHAT POINT t WRITES BACK is block t of the pooled array. -/
theorem flushed_eq (c : Dev nD) (t : Fin cfg0.N) :
    (dats m 0 c).flushed 6 t
      = ((cfg0.win 6).blk t).view.read (Elt Ideal) (pooled (aX m c) (aW₁ m c) (aW₂ m c) (aG m c) (aB₁ m c) (aB₂ m c)) := by
  rw [Value.flushed6]
  obtain ⟨-, -, -, -, -, -, -, -, -, -, -, -, -, e⟩ := idx_facts t
  funext y
  rw [View.read_apply]
  refine flushed_at m c t y _ ?_ ?_ ?_
  · show win0_6.index t (0 : Fin 3) * 1 + 1 * (y 0).val = win0_6.index t (0 : Fin 3)
    have hy : (y 0).val < 1 := (y 0).isLt
    omega
  · show win0_6.index t (1 : Fin 3) * 1024 + 1 * (y 1).val = win0_6.index t (1 : Fin 3) * 1024 + (y 1).val
    omega
  · show win0_6.index t (2 : Fin 3) * 1024 + 1 * (y 2).val = (y 2).val
    omega

/-! ## The blocks cover the output -/

/-- An index of the output is in point t's block iff each coordinate is in the block's range on its axis. -/
theorem mem_blk (t : Fin cfg0.N) (i : S8x2048x1024.Idx) :
    i ∈ ((cfg0.win 6).blk t).view.set ↔ ∀ a : Fin 3, win0_6.index t a * S1x1024x1024.size a ≤ (i a).val
      ∧ (i a).val < win0_6.index t a * S1x1024x1024.size a + S1x1024x1024.size a := by
  show i ∈ ((View.whole main_v1).slice (win0_6.rect t)).set ↔ _
  rw [View.set_slice_whole, Rect.mem_set_unit]
  exact Iff.rfl

/-- Every index of the output is in the block of the point with its batch entry and its group's half. -/
theorem cover (i : S8x2048x1024.Idx) :
    ∃ t : Fin cfg0.N, (cfg0.win 6).flush t = true ∧ i ∈ ((cfg0.win 6).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 1024, by omega⟩
  have q0 : win0_6.index t (0 : Fin 3) = (i 0).val := congrFun ht 0
  have q1 : win0_6.index t (1 : Fin 3) = (i 1).val / 1024 := congrFun ht 1
  have q2 : win0_6.index t (2 : Fin 3) = 0 := congrFun ht 2
  refine ⟨t, flush0_6 t, ?_⟩
  rw [mem_blk]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 1024 ≤ (i 1).val ∧ (i 1).val < win0_6.index t (1 : Fin 3) * 1024 + 1024
    omega
  | ⟨2, _⟩ =>
    show win0_6.index t (2 : Fin 3) * 1024 ≤ (i 2).val ∧ (i 2).val < win0_6.index t (2 : Fin 3) * 1024 + 1024
    omega

/-! ## The run, read -/

/-- THE OUTPUT ARRAY after the run is the pooled array of the arguments as launched. -/
theorem final (c : Dev nD) :
    (dats m 0 c).arrAt 6 cfg0.N = pooled (aX m c) (aW₁ m c) (aW₂ m c) (aG m c) (aB₁ m c) (aB₂ m c) :=
  (dats m 0 c).arrAt_eq_of_cover 6 (pooled (aX m c) (aW₁ m c) (aW₂ m c) (aG m c) (aB₁ m c) (aB₂ m c))
    (fun t _ => flushed_eq m c t) cover

/-- Every weakly fair execution of the kernel program ends with the output at the pooled array, the arguments unchanged. -/
theorem run : θ_run defs (onTc (τ := τ) (main (F := Ideal))) ⟨m, fun _ => 0, ρ⟩ fun r => ∀ c : Dev nD,
      r.2.mem ((c : Thread nD τ).loc main_v1) = pooled (aX m c) (aW₁ m c) (aW₂ m c) (aG m c) (aB₁ m c) (aB₂ m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.Pool.KernelValue

end
-- ==== Proof.Consts.lean ====
/-
  The two float constants of the stride-2 average, as the extended reals their words denote:
  the kernel multiplies by 0.5, the reference divides by 2.0.
-/
import Idealize.ShloMosaic.PureOps.Ideal

noncomputable section

namespace Cert.Pool.Consts

open Idealize.ShloMosaic

/-- The word of `0.5` denotes the real one half. -/
theorem ofBits_half : Ideal.ofBits .f32 0x3F000000#32 = ((1 / 2 : ℝ) : EReal) := by
  simp [Ideal.ofBits, Ideal.ieee, -EReal.coe_mul]; norm_num

/-- The word of `2.0` denotes the real two. -/
theorem ofBits_two : Ideal.ofBits .f32 0x40000000#32 = ((2 : ℝ) : EReal) := by
  simp [Ideal.ofBits, Ideal.ieee, -EReal.coe_mul]; norm_num

end Cert.Pool.Consts

end
-- ==== Proof.RefValue.lean ====
/-
  The reference computes the pooled bilinear features.

  Its host operations are read one at a time at an index given by coordinates: the two dot products
  with their biases at (p, t, n); their outer product at (p, t, n₁, n₂); the flat layout 32·n₁ + n₂
  and the scale at (p, t, c); the regrouping of frames into pairs, frame 2o + s at (p, o, s, c); and
  the sum over s divided by two. Dividing by the real 2 is multiplying by ½ on every extended real.
-/
import proofs.«170283_j34213709480472_1_alg».proof.Proof.Gen.ReferenceIdeal.Read
import proofs.«170283_j34213709480472_1_alg».proof.Proof.Spec
import proofs.«170283_j34213709480472_1_alg».proof.Proof.Consts

noncomputable section

open scoped BigOperators

namespace Cert.Pool.RefValue

open Idealize.ShloMosaic Idealize.ShloMosaic.ValueIdx Cert.ReferenceIdeal Cert.ReferenceIdeal.Read Cert.Pool

variable (X : FVec Ideal S8x4096x128 .f32) (W₁ W₂ : FVec Ideal S128x32 .f32) (g : FVec Ideal S1 .f32)
  (b₁ b₂ : FVec Ideal S32 .f32)

/-- The first projection with its bias, at (p, t, n). -/
theorem v3_at (p : Fin 8) (t : Fin 4096) (n : Fin 32) :
    val_main_v3 (F := Ideal) X W₁ b₁ (ix3 p t n) = proj X W₁ b₁ p t n := by
  rw [val_main_v3_apply, val_main_v0_apply, val_main_v2_apply, val_main_v1_apply]
  have el : ∀ k : Fin 128, lidx_main_v0 (ix3 p t n) k = ix3 p t k := fun k => funext fun a => Fin.ext (by
    match a with | ⟨0, _⟩ => rfl | ⟨1, _⟩ => rfl | ⟨2, _⟩ => rfl)
  have er : ∀ k : Fin 128, ridx_main_v0 (ix3 p t n) k = ix2 k n := fun k => funext fun a => Fin.ext (by
    match a with | ⟨0, _⟩ => rfl | ⟨1, _⟩ => rfl)
  have eb : idx_main_v1 (idx_main_v2 (ix3 p t n)) = ix1 n := funext fun a => Fin.ext (by
    match a with | ⟨0, _⟩ => rfl)
  simp only [el, er, eb]
  rfl

/-- The second projection with its bias, at (p, t, n). -/
theorem v7_at (p : Fin 8) (t : Fin 4096) (n : Fin 32) :
    val_main_v7 (F := Ideal) X W₂ b₂ (ix3 p t n) = proj X W₂ b₂ p t n := by
  rw [val_main_v7_apply, val_main_v4_apply, val_main_v6_apply, val_main_v5_apply]
  have el : ∀ k : Fin 128, lidx_main_v4 (ix3 p t n) k = ix3 p t k := fun k => funext fun a => Fin.ext (by
    match a with | ⟨0, _⟩ => rfl | ⟨1, _⟩ => rfl | ⟨2, _⟩ => rfl)
  have er : ∀ k : Fin 128, ridx_main_v4 (ix3 p t n) k = ix2 k n := fun k => funext fun a => Fin.ext (by
    match a with | ⟨0, _⟩ => rfl | ⟨1, _⟩ => rfl)
  have eb : idx_main_v5 (idx_main_v6 (ix3 p t n)) = ix1 n := funext fun a => Fin.ext (by
    match a with | ⟨0, _⟩ => rfl)
  simp only [el, er, eb]
  rfl

/-- The outer product of the two projections, at (p, t, n₁, n₂). -/
theorem v13_at (p : Fin 8) (t : Fin 4096) (n₁ n₂ : Fin 32) :
    val_main_v13 (F := Ideal) X W₁ W₂ b₁ b₂ (ix4 p t n₁ n₂) = proj X W₁ b₁ p t n₁ * proj X W₂ b₂ p t n₂ := by
  rw [val_main_v13_apply, val_main_v11_apply, val_main_v9_apply, val_main_v12_apply, val_main_v10_apply]
  have e1 : idx_main_v9 (idx_main_v11 (ix4 p t n₁ n₂)) = ix3 p t n₁ := funext fun a => Fin.ext (by
    match a with | ⟨0, _⟩ => rfl | ⟨1, _⟩ => rfl | ⟨2, _⟩ => rfl)
  have e2 : idx_main_v10 (idx_main_v12 (ix4 p t n₁ n₂)) = ix3 p t n₂ := funext fun a => Fin.ext (by
    match a with | ⟨0, _⟩ => rfl | ⟨1, _⟩ => rfl | ⟨2, _⟩ => rfl)
  rw [e1, e2, v3_at, v7_at]
  rfl

/-- A one-element array has one index. -/
theorem idx1_eq (k : (⟨1, ![1]⟩ : Shape).Idx) : k = ix1 (0 : Fin 1) := funext fun a => Fin.ext (by
  match a with
  | ⟨0, _⟩ => have h : (k 0).val < 1 := (k 0).isLt; show (k 0).val = 0; omega)

/-- The one-element scale array read as a scalar is its element. -/
theorem v8_at (j : S_.Idx) : val_main_v8 (F := Ideal) g j = g (ix1 (0 : Fin 1)) := by
  unfold val_main_v8 shapeCast
  exact congrArg g (idx1_eq _)

/-- The scaled features in the flat layout, at (p, t, c): column c holds basis pair (c / 32, c % 32). -/
theorem v16_at (p : Fin 8) (t : Fin 4096) (c : Fin 1024) :
    val_main_v16 (F := Ideal) X W₁ W₂ g b₁ b₂ (ix3 p t c) = feat X W₁ W₂ g b₁ b₂ p t (hi c) (lo c) := by
  rw [val_main_v16_apply, val_main_v15_apply, v8_at, val_main_v14_apply]
  have e : idx_main_v14 (ix3 p t c) = ix4 p t (hi c) (lo c) := funext fun a => Fin.ext (by
    have hp := p.isLt; have ht := t.isLt; have hc := c.isLt
    match a with
    | ⟨0, _⟩ => show ((p.val * 4096 + t.val) * 1024 + c.val) / 4194304 = p.val; omega
    | ⟨1, _⟩ => show ((p.val * 4096 + t.val) * 1024 + c.val) / 1024 % 4096 = t.val; omega
    | ⟨2, _⟩ => show ((p.val * 4096 + t.val) * 1024 + c.val) / 32 % 32 = c.val / 32; omega
    | ⟨3, _⟩ => show ((p.val * 4096 + t.val) * 1024 + c.val) % 32 = c.val % 32; omega)
  rw [e, v13_at]
  rfl

/-- The frames regrouped in pairs: (p, o, s, c) is frame 2o + s. -/
theorem v17_at (p : Fin 8) (o : Fin 2048) (s : Fin 2) (c : Fin 1024) :
    val_main_v17 (F := Ideal) X W₁ W₂ g b₁ b₂ (ix4 p o s c)
      = feat X W₁ W₂ g b₁ b₂ p ⟨2 * o.val + s.val, by have := o.isLt; have := s.isLt; omega⟩ (hi c) (lo c) := by
  rw [val_main_v17_apply]
  have e : idx_main_v17 (ix4 p o s c) = ix3 p (⟨2 * o.val + s.val, by have := o.isLt; have := s.isLt; omega⟩ : Fin 4096) c :=
    funext fun a => Fin.ext (by
      have hp := p.isLt; have ho := o.isLt; have hs := s.isLt; have hc := c.isLt
      match a with
      | ⟨0, _⟩ => show (((p.val * 2048 + o.val) * 2 + s.val) * 1024 + c.val) / 4194304 = p.val; omega
      | ⟨1, _⟩ => show (((p.val * 2048 + o.val) * 2 + s.val) * 1024 + c.val) / 1024 % 4096 = 2 * o.val + s.val; omega
      | ⟨2, _⟩ => show (((p.val * 2048 + o.val) * 2 + s.val) * 1024 + c.val) % 1024 = c.val; omega)
  rw [e, v16_at]

/-- THE REFERENCE'S RESULT is the pooled array. -/
theorem result_eq : val_main_v20 (F := Ideal) X W₁ W₂ g b₁ b₂ = pooled X W₁ W₂ g b₁ b₂ := by
  funext i
  obtain ⟨p, o, c, rfl⟩ : ∃ (p : Fin 8) (o : Fin 2048) (c : Fin 1024), i = ix3 p o c := ⟨i 0, i 1, i 2, eq_ix3 i⟩
  rw [pooled_ix3, val_main_v20_apply, val_main_v18_apply, val_main_v19_apply, val_main_cst_0_apply, val_main_cst_apply,
    Fin.sum_univ_two]
  have e0 : idx_main_v18 (ix3 p o c) (0 : Fin 2) = ix4 p o (0 : Fin 2) c := funext fun a => Fin.ext (by
    match a with | ⟨0, _⟩ => rfl | ⟨1, _⟩ => rfl | ⟨2, _⟩ => rfl | ⟨3, _⟩ => rfl)
  have e1 : idx_main_v18 (ix3 p o c) (1 : Fin 2) = ix4 p o (1 : Fin 2) c := funext fun a => Fin.ext (by
    match a with | ⟨0, _⟩ => rfl | ⟨1, _⟩ => rfl | ⟨2, _⟩ => rfl | ⟨3, _⟩ => rfl)
  rw [e0, e1, v17_at, v17_at]
  show Ideal.div (Ideal.ofBits .f32 0x00000000#32 + (feat X W₁ W₂ g b₁ b₂ p (even o) (hi c) (lo c) + feat X W₁ W₂ g b₁ b₂ p (odd o) (hi c) (lo c)))
      (Ideal.ofBits .f32 0x40000000#32) = _
  rw [Consts.ofBits_two, Ideal.div_coe (by norm_num : (2 : ℝ) ≠ 0), ← Consts.ofBits_half, ← add_assoc]
  rfl

end Cert.Pool.RefValue

end
-- ==== Proof.lean ====
/-
  The pooled bilinear features: a Pallas kernel against its jnp reference, equal on the extended reals.

  For batch entry p and frame t both programs form two affine projections of the frame's 128
  features onto 32 basis columns, z₁ = X[p,t,:]·W₁ + b₁ and z₂ = X[p,t,:]·W₂ + b₂, the scaled outer
  product g·(z₁[n₁]·z₂[n₂]) laid out flat at column 32·n₁ + n₂, and the average of frames 2o and
  2o + 1. The kernel walks an 8 × 2 grid of blocks of 1024 pooling groups over the input regrouped in
  frame pairs, accumulates the two frames onto zero and multiplies by ½; the reference regroups the
  flat features in pairs, sums each pair onto zero and divides by 2.

  Both are the one function `Cert.Pool.pooled` of the argument arrays (Proof/Spec.lean): the kernel
  because what each grid point writes back is its block of that array and the sixteen blocks cover
  the output (Proof/KernelBlock.lean, Proof/KernelValue.lean), the reference operation by operation
  (Proof/RefValue.lean). The only laws used are the associativity of the sum and x / 2 = x · ½, which
  hold at the infinities too, so the finiteness of the inputs is never opened. The ideal pass
  rewrote nothing in the kernel, so the idealization claim is trivial; the three frames are the
  generated ones.
-/
import proofs.«170283_j34213709480472_1_alg».proof.Defs
import proofs.«170283_j34213709480472_1_alg».proof.Proof.Gen.Kernel
import proofs.«170283_j34213709480472_1_alg».proof.Proof.Gen.Kernel.Skeleton
import proofs.«170283_j34213709480472_1_alg».proof.Proof.Gen.Kernel.Launch
import proofs.«170283_j34213709480472_1_alg».proof.Proof.Gen.Kernel.Points
import proofs.«170283_j34213709480472_1_alg».proof.Proof.Gen.Kernel.Frame
import proofs.«170283_j34213709480472_1_alg».proof.Proof.Gen.KernelIdeal
import proofs.«170283_j34213709480472_1_alg».proof.Proof.Gen.KernelIdeal.Skeleton
import proofs.«170283_j34213709480472_1_alg».proof.Proof.Gen.KernelIdeal.Launch
import proofs.«170283_j34213709480472_1_alg».proof.Proof.Gen.KernelIdeal.Points
import proofs.«170283_j34213709480472_1_alg».proof.Proof.Gen.KernelIdeal.Frame
import proofs.«170283_j34213709480472_1_alg».proof.Proof.Gen.KernelIdeal.Value
import proofs.«170283_j34213709480472_1_alg».proof.Proof.Gen.ReferenceIdeal
import proofs.«170283_j34213709480472_1_alg».proof.Proof.Gen.ReferenceIdeal.Run
import proofs.«170283_j34213709480472_1_alg».proof.Proof.Gen.ReferenceIdeal.Read
import proofs.«170283_j34213709480472_1_alg».proof.Proof.Gen.Pre_finite_inputs
import proofs.«170283_j34213709480472_1_alg».proof.Proof.KernelValue
import proofs.«170283_j34213709480472_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on the arguments both programs end with the pooled array of those arguments. -/
theorem algebraic : Cert.algebraic_KernelIdeal_ReferenceIdeal := by
  intro m ρ m' ρ' _ hagree
  refine ⟨fun c => Cert.Pool.pooled (Cert.Pool.KernelValue.aX m c) (Cert.Pool.KernelValue.aW₁ m c)
    (Cert.Pool.KernelValue.aW₂ m c) (Cert.Pool.KernelValue.aG m c) (Cert.Pool.KernelValue.aB₁ m c)
    (Cert.Pool.KernelValue.aB₂ m c), Cert.Pool.KernelValue.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5⟩ := hagree c
  rw [(h c).1, Cert.ReferenceIdeal.Read.val_main_v20_eq, Cert.Pool.RefValue.result_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
